-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x9x32 : Shape := ⟨4, ![256, 512, 9, 32]⟩
abbrev S96x32 : Shape := ⟨2, ![96, 32]⟩
abbrev S_ : Shape := ⟨0, ![]⟩

class Facts : Prop where
  bcast_S_S256x512x9x32 : S_.BroadcastsInDim S256x512x9x32 (![] : Fin 0 → Fin S256x512x9x32.rank)
  reducesTo_S256x512x9x32_S_d0_1_2_3 : S256x512x9x32.ReducesTo [0, 1, 2, 3] S_
  h_S_ : 0 < S_.numel
  bcast_S_S96x32 : S_.BroadcastsInDim S96x32 (![] : Fin 0 → Fin S96x32.rank)
  reducesTo_S96x32_S_d0_1 : S96x32.ReducesTo [0, 1] S_

variable [Facts]

def fn {F : FTy → Type} [FloatOps F] (main_arg0 : FVec F S256x512x9x32 .f32) (main_arg1 : FVec F S96x32 .f32) : IVec S_ 1 :=
  let main_v0 : FVec F S256x512x9x32 .f32 := Host.absf main_arg0
  let main_cst : FVec F S_ .f32 := constant S_ .f32 0x7F800000#32
  let main_v1 : FVec F S256x512x9x32 .f32 := broadcastInDim S256x512x9x32 ![] bcast_S_S256x512x9x32 main_cst
  let main_v2 : IVec S256x512x9x32 1 := cmpf .olt main_v0 main_v1
  let main_c : IVec S_ 1 := constantI S_ 1 1#1
  let main_v3 : IVec S_ 1 := (fun x v => Host.reduce IntOp.andi x v reducesTo_S256x512x9x32_S_d0_1_2_3 h_S_) main_v2 main_c
  let main_v4 : FVec F S96x32 .f32 := Host.absf main_arg1
  let main_cst_0 : FVec F S_ .f32 := constant S_ .f32 0x7F800000#32
  let main_v5 : FVec F S96x32 .f32 := broadcastInDim S96x32 ![] bcast_S_S96x32 main_cst_0
  let main_v6 : IVec S96x32 1 := cmpf .olt main_v4 main_v5
  let main_c_1 : IVec S_ 1 := constantI S_ 1 1#1
  let main_v7 : IVec S_ 1 := (fun x v => Host.reduce IntOp.andi x v reducesTo_S96x32_S_d0_1 h_S_) main_v6 main_c_1
  let main_v8 : IVec S_ 1 := andi main_v3 main_v7
  main_v8
-- ==== Kernel.lean ====
abbrev S256x512x9x32 : Shape := ⟨4, ![256, 512, 9, 32]⟩
abbrev S96x32 : Shape := ⟨2, ![96, 32]⟩
abbrev S131072x288 : Shape := ⟨2, ![131072, 288]⟩
abbrev S_ : Shape := ⟨0, ![]⟩
abbrev S288x256 : Shape := ⟨2, ![288, 256]⟩
abbrev S32x32 : Shape := ⟨2, ![32, 32]⟩
abbrev S1 : Shape := ⟨1, ![1]⟩
abbrev S2 : Shape := ⟨1, ![2]⟩
abbrev S131072x256 : Shape := ⟨2, ![131072, 256]⟩
abbrev S4096x288 : Shape := ⟨2, ![4096, 288]⟩
abbrev S4096x256 : Shape := ⟨2, ![4096, 256]⟩
abbrev S256x512x256 : Shape := ⟨3, ![256, 512, 256]⟩

abbrev nBuf : Space → Nat
  | .hbm => 175
  | .vmem => 5
  | .smem => 0
  | _ => 0

abbrev hbmTy0_0 (i : Nat) : BufTy := match i % 128 with
  | 0 => ⟨S256x512x9x32, .f32⟩
  | 1 => ⟨S96x32, .f32⟩
  | 2 => ⟨S131072x288, .f32⟩
  | 3 => ⟨S_, .f32⟩
  | 4 => ⟨S288x256, .f32⟩
  | 5 => ⟨S32x32, .f32⟩
  | 6 => ⟨S_, .i32⟩
  | 7 => ⟨S1, .i32⟩
  | 8 => ⟨S_, .i32⟩
  | 9 => ⟨S1, .i32⟩
  | 10 => ⟨S2, .i32⟩
  | 11 => ⟨S288x256, .f32⟩
  | 12 => ⟨S32x32, .f32⟩
  | 13 => ⟨S_, .i32⟩
  | 14 => ⟨S1, .i32⟩
  | 15 => ⟨S_, .i32⟩
  | 16 => ⟨S1, .i32⟩
  | 17 => ⟨S2, .i32⟩
  | 18 => ⟨S288x256, .f32⟩
  | 19 => ⟨S32x32, .f32⟩
  | 20 => ⟨S_, .i32⟩
  | 21 => ⟨S1, .i32⟩
  | 22 => ⟨S_, .i32⟩
  | 23 => ⟨S1, .i32⟩
  | 24 => ⟨S2, .i32⟩
  | 25 => ⟨S288x256, .f32⟩
  | 26 => ⟨S32x32, .f32⟩
  | 27 => ⟨S_, .i32⟩
  | 28 => ⟨S1, .i32⟩
  | 29 => ⟨S_, .i32⟩
  | 30 => ⟨S1, .i32⟩
  | 31 => ⟨S2, .i32⟩
  | 32 => ⟨S288x256, .f32⟩
  | 33 => ⟨S32x32, .f32⟩
  | 34 => ⟨S_, .i32⟩
  | 35 => ⟨S1, .i32⟩
  | 36 => ⟨S_, .i32⟩
  | 37 => ⟨S1, .i32⟩
  | 38 => ⟨S2, .i32⟩
  | 39 => ⟨S288x256, .f32⟩
  | 40 => ⟨S32x32, .f32⟩
  | 41 => ⟨S_, .i32⟩
  | 42 => ⟨S1, .i32⟩
  | 43 => ⟨S_, .i32⟩
  | 44 => ⟨S1, .i32⟩
  | 45 => ⟨S2, .i32⟩
  | 46 => ⟨S288x256, .f32⟩
  | 47 => ⟨S32x32, .f32⟩
  | 48 => ⟨S_, .i32⟩
  | 49 => ⟨S1, .i32⟩
  | 50 => ⟨S_, .i32⟩
  | 51 => ⟨S1, .i32⟩
  | 52 => ⟨S2, .i32⟩
  | 53 => ⟨S288x256, .f32⟩
  | 54 => ⟨S32x32, .f32⟩
  | 55 => ⟨S_, .i32⟩
  | 56 => ⟨S1, .i32⟩
  | 57 => ⟨S_, .i32⟩
  | 58 => ⟨S1, .i32⟩
  | 59 => ⟨S2, .i32⟩
  | 60 => ⟨S288x256, .f32⟩
  | 61 => ⟨S32x32, .f32⟩
  | 62 => ⟨S_, .i32⟩
  | 63 => ⟨S1, .i32⟩
  | 64 => ⟨S_, .i32⟩
  | 65 => ⟨S1, .i32⟩
  | 66 => ⟨S2, .i32⟩
  | 67 => ⟨S288x256, .f32⟩
  | 68 => ⟨S32x32, .f32⟩
  | 69 => ⟨S_, .i32⟩
  | 70 => ⟨S1, .i32⟩
  | 71 => ⟨S_, .i32⟩
  | 72 => ⟨S1, .i32⟩
  | 73 => ⟨S2, .i32⟩
  | 74 => ⟨S288x256, .f32⟩
  | 75 => ⟨S32x32, .f32⟩
  | 76 => ⟨S_, .i32⟩
  | 77 => ⟨S1, .i32⟩
  | 78 => ⟨S_, .i32⟩
  | 79 => ⟨S1, .i32⟩
  | 80 => ⟨S2, .i32⟩
  | 81 => ⟨S288x256, .f32⟩
  | 82 => ⟨S32x32, .f32⟩
  | 83 => ⟨S_, .i32⟩
  | 84 => ⟨S1, .i32⟩
  | 85 => ⟨S_, .i32⟩
  | 86 => ⟨S1, .i32⟩
  | 87 => ⟨S2, .i32⟩
  | 88 => ⟨S288x256, .f32⟩
  | 89 => ⟨S32x32, .f32⟩
  | 90 => ⟨S_, .i32⟩
  | 91 => ⟨S1, .i32⟩
  | 92 => ⟨S_, .i32⟩
  | 93 => ⟨S1, .i32⟩
  | 94 => ⟨S2, .i32⟩
  | 95 => ⟨S288x256, .f32⟩
  | 96 => ⟨S32x32, .f32⟩
  | 97 => ⟨S_, .i32⟩
  | 98 => ⟨S1, .i32⟩
  | 99 => ⟨S_, .i32⟩
  | 100 => ⟨S1, .i32⟩
  | 101 => ⟨S2, .i32⟩
  | 102 => ⟨S288x256, .f32⟩
  | 103 => ⟨S32x32, .f32⟩
  | 104 => ⟨S_, .i32⟩
  | 105 => ⟨S1, .i32⟩
  | 106 => ⟨S_, .i32⟩
  | 107 => ⟨S1, .i32⟩
  | 108 => ⟨S2, .i32⟩
  | 109 => ⟨S288x256, .f32⟩
  | 110 => ⟨S32x32, .f32⟩
  | 111 => ⟨S_, .i32⟩
  | 112 => ⟨S1, .i32⟩
  | 113 => ⟨S_, .i32⟩
  | 114 => ⟨S1, .i32⟩
  | 115 => ⟨S2, .i32⟩
  | 116 => ⟨S288x256, .f32⟩
  | 117 => ⟨S32x32, .f32⟩
  | 118 => ⟨S_, .i32⟩
  | 119 => ⟨S1, .i32⟩
  | 120 => ⟨S_, .i32⟩
  | 121 => ⟨S1, .i32⟩
  | 122 => ⟨S2, .i32⟩
  | 123 => ⟨S288x256, .f32⟩
  | 124 => ⟨S32x32, .f32⟩
  | 125 => ⟨S_, .i32⟩
  | 126 => ⟨S1, .i32⟩
  | 127 => ⟨S_, .i32⟩
  | _ => ⟨S256x512x9x32, .f32⟩

abbrev hbmTy0_1 (i : Nat) : BufTy := match i % 128 with
  | 0 => ⟨S1, .i32⟩
  | 1 => ⟨S2, .i32⟩
  | 2 => ⟨S288x256, .f32⟩
  | 3 => ⟨S32x32, .f32⟩
  | 4 => ⟨S_, .i32⟩
  | 5 => ⟨S1, .i32⟩
  | 6 => ⟨S_, .i32⟩
  | 7 => ⟨S1, .i32⟩
  | 8 => ⟨S2, .i32⟩
  | 9 => ⟨S288x256, .f32⟩
  | 10 => ⟨S32x32, .f32⟩
  | 11 => ⟨S_, .i32⟩
  | 12 => ⟨S1, .i32⟩
  | 13 => ⟨S_, .i32⟩
  | 14 => ⟨S1, .i32⟩
  | 15 => ⟨S2, .i32⟩
  | 16 => ⟨S288x256, .f32⟩
  | 17 => ⟨S32x32, .f32⟩
  | 18 => ⟨S_, .i32⟩
  | 19 => ⟨S1, .i32⟩
  | 20 => ⟨S_, .i32⟩
  | 21 => ⟨S1, .i32⟩
  | 22 => ⟨S2, .i32⟩
  | 23 => ⟨S288x256, .f32⟩
  | 24 => ⟨S32x32, .f32⟩
  | 25 => ⟨S_, .i32⟩
  | 26 => ⟨S1, .i32⟩
  | 27 => ⟨S_, .i32⟩
  | 28 => ⟨S1, .i32⟩
  | 29 => ⟨S2, .i32⟩
  | 30 => ⟨S288x256, .f32⟩
  | 31 => ⟨S32x32, .f32⟩
  | 32 => ⟨S_, .i32⟩
  | 33 => ⟨S1, .i32⟩
  | 34 => ⟨S_, .i32⟩
  | 35 => ⟨S1, .i32⟩
  | 36 => ⟨S2, .i32⟩
  | 37 => ⟨S288x256, .f32⟩
  | 38 => ⟨S32x32, .f32⟩
  | 39 => ⟨S_, .i32⟩
  | 40 => ⟨S1, .i32⟩
  | 41 => ⟨S_, .i32⟩
  | 42 => ⟨S1, .i32⟩
  | 43 => ⟨S2, .i32⟩
  | 44 => ⟨S288x256, .f32⟩
  | 45 => ⟨S131072x256, .f32⟩
  | 46 => ⟨S256x512x256, .f32⟩
  | _ => ⟨S256x512x9x32, .f32⟩

abbrev hbmTy (i : Nat) : BufTy := match i / 128 with
  | 0 => hbmTy0_0 i
  | 1 => hbmTy0_1 i
  | _ => ⟨S256x512x9x32, .f32⟩

abbrev bufTy : (tb : Table) → Fin (tcTables nBuf tb) → BufTy
  | .hbm, ⟨i, _⟩ => hbmTy i
  | .local _ .vmem, ⟨0, _⟩ => ⟨S4096x288, .f32⟩
  | .local _ .vmem, ⟨1, _⟩ => ⟨S4096x288, .f32⟩
  | .local _ .vmem, ⟨2, _⟩ => ⟨S288x256, .f32⟩
  | .local _ .vmem, ⟨3, _⟩ => ⟨S4096x256, .f32⟩
  | .local _ .vmem, ⟨4, _⟩ => ⟨S4096x256, .f32⟩
  | _, _ => ⟨S256x512x9x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_c_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_c_8 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_9 : Ref sig .tc := ⟨.hbm, 41, rfl⟩
abbrev main_v28 : Ref sig .tc := ⟨.hbm, 42, rfl⟩
abbrev main_c_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_11 : Ref sig .tc := ⟨.hbm, 48, rfl⟩
abbrev main_v33 : Ref sig .tc := ⟨.hbm, 49, rfl⟩
abbrev main_c_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_13 : Ref sig .tc := ⟨.hbm, 55, rfl⟩
abbrev main_v38 : Ref sig .tc := ⟨.hbm, 56, rfl⟩
abbrev main_c_14 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_15 : Ref sig .tc := ⟨.hbm, 62, rfl⟩
abbrev main_v43 : Ref sig .tc := ⟨.hbm, 63, rfl⟩
abbrev main_c_16 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_17 : Ref sig .tc := ⟨.hbm, 69, rfl⟩
abbrev main_v48 : Ref sig .tc := ⟨.hbm, 70, rfl⟩
abbrev main_c_18 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_19 : Ref sig .tc := ⟨.hbm, 76, rfl⟩
abbrev main_v53 : Ref sig .tc := ⟨.hbm, 77, rfl⟩
abbrev main_c_20 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_21 : Ref sig .tc := ⟨.hbm, 83, rfl⟩
abbrev main_v58 : Ref sig .tc := ⟨.hbm, 84, rfl⟩
abbrev main_c_22 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_23 : Ref sig .tc := ⟨.hbm, 90, rfl⟩
abbrev main_v63 : Ref sig .tc := ⟨.hbm, 91, rfl⟩
abbrev main_c_24 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_25 : Ref sig .tc := ⟨.hbm, 97, rfl⟩
abbrev main_v68 : Ref sig .tc := ⟨.hbm, 98, rfl⟩
abbrev main_c_26 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_27 : Ref sig .tc := ⟨.hbm, 104, rfl⟩
abbrev main_v73 : Ref sig .tc := ⟨.hbm, 105, rfl⟩
abbrev main_c_28 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_29 : Ref sig .tc := ⟨.hbm, 111, rfl⟩
abbrev main_v78 : Ref sig .tc := ⟨.hbm, 112, rfl⟩
abbrev main_c_30 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_31 : Ref sig .tc := ⟨.hbm, 118, rfl⟩
abbrev main_v83 : Ref sig .tc := ⟨.hbm, 119, rfl⟩
abbrev main_c_32 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_33 : Ref sig .tc := ⟨.hbm, 125, rfl⟩
abbrev main_v88 : Ref sig .tc := ⟨.hbm, 126, rfl⟩
abbrev main_c_34 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_35 : Ref sig .tc := ⟨.hbm, 132, rfl⟩
abbrev main_v93 : Ref sig .tc := ⟨.hbm, 133, rfl⟩
abbrev main_c_36 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_37 : Ref sig .tc := ⟨.hbm, 139, rfl⟩
abbrev main_v98 : Ref sig .tc := ⟨.hbm, 140, rfl⟩
abbrev main_c_38 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_39 : Ref sig .tc := ⟨.hbm, 146, rfl⟩
abbrev main_v103 : Ref sig .tc := ⟨.hbm, 147, rfl⟩
abbrev main_c_40 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_41 : Ref sig .tc := ⟨.hbm, 153, rfl⟩
abbrev main_v108 : Ref sig .tc := ⟨.hbm, 154, rfl⟩
abbrev main_c_42 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_c_43 : Ref sig .tc := ⟨.hbm, 160, rfl⟩
abbrev main_v113 : Ref sig .tc := ⟨.hbm, 161, rfl⟩
abbrev main_c_44 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_45 : Ref sig .tc := ⟨.hbm, 167, rfl⟩
abbrev main_v118 : Ref sig .tc := ⟨.hbm, 168, rfl⟩
abbrev main_c_46 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256x512x9x32_S131072x288 : S256x512x9x32.ShapeCasts S131072x288
  bcast_S_S288x256 : S_.BroadcastsInDim S288x256 (![] : Fin 0 → Fin S288x256.rank)
  slices_S96x32_S32x32_0_0 : S96x32.Slices ![0, 0] S32x32
  bcast_S_S1 : S_.BroadcastsInDim S1 (![] : Fin 0 → Fin S1.rank)
  concatenates_S1_S1_S2_d0 : Shape.Concatenates [S1, S1] S2 0
  slices_S96x32_S32x32_32_0 : S96x32.Slices ![32, 0] S32x32
  slices_S96x32_S32x32_64_0 : S96x32.Slices ![64, 0] S32x32
  inb_S4096x288_S4096x288_0_0 : ∀ a, (![0, 0] : Fin 2 → Nat) a + S4096x288.size a ≤ S4096x288.size a
  h_S4096x288 : 0 < S4096x288.numel
  shapeCasts_S4096x288_S4096x288 : S4096x288.ShapeCasts S4096x288
  bitsLt_bf16_f32 : FTy.bits .bf16 < FTy.bits .f32
  inb_S288x256_S288x256_0_0 : ∀ a, (![0, 0] : Fin 2 → Nat) a + S288x256.size a ≤ S288x256.size a
  h_S288x256 : 0 < S288x256.numel
  shapeCasts_S288x256_S288x256 : S288x256.ShapeCasts S288x256
  inb_S4096x256_S4096x256_0_0 : ∀ a, (![0, 0] : Fin 2 → Nat) a + S4096x256.size a ≤ S4096x256.size a
  h_S4096x256 : 0 < S4096x256.numel
  shapeCasts_S131072x256_S256x512x256 : S131072x256.ShapeCasts S256x512x256
  scatter_S288x256_S2_S32x32_01_n_01_0_wf : ScatterDims.WF S288x256 S2 S32x32 [0, 1] [] [0, 1] 0
  dot_S4096x288_S288x256_S4096x256_1_0_0_1_n_n_wf : DotDims.WF S4096x288 S288x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x288.size a ≤ S131072x288.size a
  hwx0_0 : ∀ i : grid0.Coords, EltTy.bits .f32 = 32 ∨ (Rect.block (s := S131072x288) S4096x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x256.size a ≤ S288x256.size a
  hwx0_1 : ∀ i : grid0.Coords, EltTy.bits .f32 = 32 ∨ (Rect.block (s := S288x256) S288x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S131072x256.size a
  hwx0_2 : ∀ i : grid0.Coords, EltTy.bits .f32 = 32 ∨ (Rect.block (s := S131072x256) S4096x256.size (cc0_transform_2 i) (hinb0_2 i)).WholeWords (EltTy.packing .f32)

variable [Facts₀]

def scatter_S288x256_S2_S32x32_01_n_01_0 : ScatterDims S288x256 S2 S32x32 where
  updateWindowDims := [0, 1]
  insertedWindowDims := []
  scatterDimsToOperandDims := [0, 1]
  indexVectorDim := 0
  wf := scatter_S288x256_S2_S32x32_01_n_01_0_wf
def dot_S4096x288_S288x256_S4096x256_1_0_0_1_n_n : DotDims S4096x288 S288x256 S4096x256 where
  lhsContracting := [1]
  rhsContracting := [0]
  lhsNonContracting := [0]
  rhsNonContracting := [1]
  lhsBatch := []
  rhsBatch := []
  wf := dot_S4096x288_S288x256_S4096x256_1_0_0_1_n_n_wf

abbrev win0_0 : Pipeline.Window sig grid0 :=
  Pipeline.Window.ofSpec (Memref.whole main_v0) S4096x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v121) S288x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v122) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x512x9x32 : Shape := ⟨4, ![256, 512, 9, 32]⟩
abbrev S96x32 : Shape := ⟨2, ![96, 32]⟩
abbrev S8x3 : Shape := ⟨2, ![8, 3]⟩
abbrev S_ : Shape := ⟨0, ![]⟩
abbrev S8x3x1 : Shape := ⟨3, ![8, 3, 1]⟩
abbrev S256x512x8x3x32 : Shape := ⟨5, ![256, 512, 8, 3, 32]⟩
abbrev S256x512x8x96 : Shape := ⟨4, ![256, 512, 8, 96]⟩
abbrev S256x512x8x32 : Shape := ⟨4, ![256, 512, 8, 32]⟩
abbrev S256x512x256 : Shape := ⟨3, ![256, 512, 256]⟩

abbrev nBuf : Space → Nat
  | .hbm => 15
  | .vmem => 0
  | .smem => 0
  | _ => 0

abbrev bufTy : (tb : Table) → Fin (tcTables nBuf tb) → BufTy
  | .hbm, ⟨0, _⟩ => ⟨S256x512x9x32, .f32⟩
  | .hbm, ⟨1, _⟩ => ⟨S96x32, .f32⟩
  | .hbm, ⟨2, _⟩ => ⟨S8x3, .i32⟩
  | .hbm, ⟨3, _⟩ => ⟨S_, .i32⟩
  | .hbm, ⟨4, _⟩ => ⟨S8x3, .i32⟩
  | .hbm, ⟨5, _⟩ => ⟨S8x3, .i1⟩
  | .hbm, ⟨6, _⟩ => ⟨S_, .i32⟩
  | .hbm, ⟨7, _⟩ => ⟨S8x3, .i32⟩
  | .hbm, ⟨8, _⟩ => ⟨S8x3, .i32⟩
  | .hbm, ⟨9, _⟩ => ⟨S8x3, .i32⟩
  | .hbm, ⟨10, _⟩ => ⟨S8x3x1, .i32⟩
  | .hbm, ⟨11, _⟩ => ⟨S256x512x8x3x32, .f32⟩
  | .hbm, ⟨12, _⟩ => ⟨S256x512x8x96, .f32⟩
  | .hbm, ⟨13, _⟩ => ⟨S256x512x8x32, .f32⟩
  | .hbm, ⟨14, _⟩ => ⟨S256x512x256, .f32⟩
  | _, _ => ⟨S256x512x9x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S8x3 : S_.BroadcastsInDim S8x3 (![] : Fin 0 → Fin S8x3.rank)
  bcast_S8x3_S8x3x1_0_1 : S8x3.BroadcastsInDim S8x3x1 (![0, 1] : Fin 2 → Fin S8x3x1.rank)
  shapeCasts_S256x512x8x3x32_S256x512x8x96 : S256x512x8x3x32.ShapeCasts S256x512x8x96
  shapeCasts_S256x512x8x32_S256x512x256 : S256x512x8x32.ShapeCasts S256x512x256
  gather_S256x512x9x32_S8x3x1_S256x512x8x3x32_014_2_n_n_2_2_256512132_wf : GatherDims.WF S256x512x9x32 S8x3x1 S256x512x8x3x32 [0, 1, 4] [2] [] [2] [] 2 ![256, 512, 1, 32]
  dot_S256x512x8x96_S96x32_S256x512x8x32_3_0_012_1_n_n_wf : DotDims.WF S256x512x8x96 S96x32 S256x512x8x32 [3] [0] [0, 1, 2] [1] [] []

variable [Facts₀]

def gather_S256x512x9x32_S8x3x1_S256x512x8x3x32_014_2_n_n_2_2_256512132 : GatherDims S256x512x9x32 S8x3x1 S256x512x8x3x32 where
  offsetDims := [0, 1, 4]
  collapsedSliceDims := [2]
  operandBatchingDims := []
  startIndicesBatchingDims := []
  startIndexMap := [2]
  indexVectorDim := 2
  sliceSizes := ![256, 512, 1, 32]
  wf := gather_S256x512x9x32_S8x3x1_S256x512x8x3x32_014_2_n_n_2_2_256512132_wf
def dot_S256x512x8x96_S96x32_S256x512x8x32_3_0_012_1_n_n : DotDims S256x512x8x96 S96x32 S256x512x8x32 where
  lhsContracting := [3]
  rhsContracting := [0]
  lhsNonContracting := [0, 1, 2]
  rhsNonContracting := [1]
  lhsBatch := []
  rhsBatch := []
  wf := dot_S256x512x8x96_S96x32_S256x512x8x32_3_0_012_1_n_n_wf

class Facts : Prop extends Facts₀ where

variable [Facts]
-- ==== Proof.Spec.lean ====
/-
  The mathematics of the certificate, with no program in sight.

  A board has nine cells; each cell of each sample point (b, n) carries a 32-vector. Eight LINES (three rows, three
  columns, two diagonals) each name three cells, in increasing order: `cell l p` is the cell at position `p` of line
  `l`. The feature (l, f) of a point is the inner product of the 96-vector obtained by laying the three cells of line
  `l` end to end with column `f` of a 96 × 32 weight array:

      lineFeat X K (b, n, 32 l + f) = ∑ p < 3, ∑ e < 32, X (b, n, cell l p, e) · K (32 p + e, f).

  One program computes exactly this sum (it gathers the cells, lays them end to end and contracts 96 terms); the other
  contracts all 288 = 9 · 32 entries of the point against a 288 × 256 SELECTION-WEIGHT array that holds
  K (32 p + e, f) at row 32 c + e, column 32 l + f when c is the cell at position p of line l, and zero when c is not
  on line l (`posOf l c` says which). The two agree on the extended reals because a product with zero is zero there
  and a finite sum may be regrouped freely: `sum_select`.
-/
import Idealize.ShloMosaic.PureOps.Ideal
import Idealize.ShloMosaic.Lib.ValueIdx

noncomputable section

open scoped BigOperators

namespace Cert.Lines

open Idealize.ShloMosaic Idealize.ShloMosaic.ValueIdx

/-- The cell at position `p` of line `l`: rows, columns, the two diagonals of the 3 × 3 board. -/
def cell : Fin 8 → Fin 3 → Fin 9 :=
  ![![0, 1, 2], ![3, 4, 5], ![6, 7, 8], ![0, 3, 6], ![1, 4, 7], ![2, 5, 8], ![0, 4, 8], ![2, 4, 6]]

/-- The position of cell `c` on line `l`, when it lies on it. -/
def posOf (l : Fin 8) (c : Fin 9) : Option (Fin 3) :=
  if cell l 0 = c then some 0 else if cell l 1 = c then some 1 else if cell l 2 = c then some 2 else none

theorem posOf_eq_some : ∀ (l : Fin 8) (c : Fin 9) (p : Fin 3), posOf l c = some p ↔ cell l p = c := by decide

theorem posOf_eq_none : ∀ (l : Fin 8) (c : Fin 9), posOf l c = none ↔ ∀ p, cell l p ≠ c := by decide

theorem cell_injective : ∀ l : Fin 8, Function.Injective (cell l) := by decide

/-! Splitting and joining the three composite axes: 96 = 3 · 32, 256 = 8 · 32, 288 = 9 · 32. -/

def cat3 (p : Fin 3) (e : Fin 32) : Fin 96 := ⟨32 * p.val + e.val, by omega⟩
def cat8 (l : Fin 8) (f : Fin 32) : Fin 256 := ⟨32 * l.val + f.val, by omega⟩
def cat9 (c : Fin 9) (e : Fin 32) : Fin 288 := ⟨32 * c.val + e.val, by omega⟩
def hi96 (q : Fin 96) : Fin 3 := ⟨q.val / 32, by omega⟩
def lo96 (q : Fin 96) : Fin 32 := ⟨q.val % 32, by omega⟩
def hi256 (n : Fin 256) : Fin 8 := ⟨n.val / 32, by omega⟩
def lo256 (n : Fin 256) : Fin 32 := ⟨n.val % 32, by omega⟩
def hi288 (j : Fin 288) : Fin 9 := ⟨j.val / 32, by omega⟩
def lo288 (j : Fin 288) : Fin 32 := ⟨j.val % 32, by omega⟩

theorem cat3_hi_lo (q : Fin 96) : cat3 (hi96 q) (lo96 q) = q := Fin.ext (by simp only [cat3, hi96, lo96]; omega)
theorem cat8_hi_lo (n : Fin 256) : cat8 (hi256 n) (lo256 n) = n := Fin.ext (by simp only [cat8, hi256, lo256]; omega)
theorem cat9_hi_lo (j : Fin 288) : cat9 (hi288 j) (lo288 j) = j := Fin.ext (by simp only [cat9, hi288, lo288]; omega)
theorem hi96_cat3 (p : Fin 3) (e : Fin 32) : hi96 (cat3 p e) = p := Fin.ext (by simp only [cat3, hi96]; omega)
theorem lo96_cat3 (p : Fin 3) (e : Fin 32) : lo96 (cat3 p e) = e := Fin.ext (by simp only [cat3, lo96]; omega)
theorem hi256_cat8 (l : Fin 8) (f : Fin 32) : hi256 (cat8 l f) = l := Fin.ext (by simp only [cat8, hi256]; omega)
theorem lo256_cat8 (l : Fin 8) (f : Fin 32) : lo256 (cat8 l f) = f := Fin.ext (by simp only [cat8, lo256]; omega)
theorem hi288_cat9 (c : Fin 9) (e : Fin 32) : hi288 (cat9 c e) = c := Fin.ext (by simp only [cat9, hi288]; omega)
theorem lo288_cat9 (c : Fin 9) (e : Fin 32) : lo288 (cat9 c e) = e := Fin.ext (by simp only [cat9, lo288]; omega)

/-- The axis of 96 as pairs (position, entry): `q ↦ (q / 32, q % 32)`. -/
def split96 : Fin 96 ≃ Fin 3 × Fin 32 where
  toFun q := (hi96 q, lo96 q)
  invFun x := cat3 x.1 x.2
  left_inv q := cat3_hi_lo q
  right_inv x := Prod.ext (hi96_cat3 x.1 x.2) (lo96_cat3 x.1 x.2)

/-- The axis of 288 as pairs (cell, entry). -/
def split288 : Fin 288 ≃ Fin 9 × Fin 32 where
  toFun j := (hi288 j, lo288 j)
  invFun x := cat9 x.1 x.2
  left_inv j := cat9_hi_lo j
  right_inv x := Prod.ext (hi288_cat9 x.1 x.2) (lo288_cat9 x.1 x.2)

theorem sum_split96 {M : Type*} [AddCommMonoid M] (g : Fin 96 → M) : ∑ q, g q = ∑ p : Fin 3, ∑ e : Fin 32, g (cat3 p e) := by
  rw [← Finset.sum_product', Finset.univ_product_univ]
  exact (Equiv.sum_comp split96.symm g).symm

theorem sum_split288 {M : Type*} [AddCommMonoid M] (g : Fin 288 → M) : ∑ j, g j = ∑ c : Fin 9, ∑ e : Fin 32, g (cat9 c e) := by
  rw [← Finset.sum_product', Finset.univ_product_univ]
  exact (Equiv.sum_comp split288.symm g).symm

/-- Feature `f` of line `l` at the point (b, n): the three cells of the line laid end to end, against column `f` of
    the weights. -/
def lineFeatAt (X : FVec Ideal ⟨4, ![256, 512, 9, 32]⟩ .f32) (K : FVec Ideal ⟨2, ![96, 32]⟩ .f32)
    (b : Fin 256) (n : Fin 512) (l : Fin 8) (f : Fin 32) : EReal :=
  ∑ p : Fin 3, ∑ e : Fin 32, X (ix4 b n (cell l p) e) * K (ix2 (cat3 p e) f)

/-- All features of all points, features laid out line after line along the last axis: the result array of both
    programs. -/
def lineFeat (X : FVec Ideal ⟨4, ![256, 512, 9, 32]⟩ .f32) (K : FVec Ideal ⟨2, ![96, 32]⟩ .f32) :
    FVec Ideal ⟨3, ![256, 512, 256]⟩ .f32 :=
  fun i => lineFeatAt X K (i 0) (i 1) (hi256 (i 2)) (lo256 (i 2))

/-- The selection-weight entry at row (cell c, entry e), column (line l, feature f): the weight the line's position of
    that cell uses, zero for a cell off the line. -/
def selWeight (K : FVec Ideal ⟨2, ![96, 32]⟩ .f32) (c : Fin 9) (e : Fin 32) (l : Fin 8) (f : Fin 32) : EReal :=
  match posOf l c with
  | some p => K (ix2 (cat3 p e) f)
  | none => 0

/-- Summing a family over all nine cells, each cell off the line contributing zero and each cell on it the term of its
    position, is summing over the line's three positions. -/
theorem sum_cells {M : Type*} [AddCommMonoid M] (l : Fin 8) (g : Fin 9 → Fin 3 → M) :
    (∑ c : Fin 9, match posOf l c with | some p => g c p | none => 0) = ∑ p : Fin 3, g (cell l p) p := by
  have h : ∀ c : Fin 9, (match posOf l c with | some p => g c p | none => 0) = ∑ p : Fin 3, if cell l p = c then g c p else 0 := by
    intro c
    cases hc : posOf l c with
    | none =>
      have hn := (posOf_eq_none l c).1 hc
      exact (Finset.sum_eq_zero fun p _ => if_neg (hn p)).symm
    | some p₀ =>
      have h₀ := (posOf_eq_some l c p₀).1 hc
      rw [Finset.sum_eq_single p₀ (fun p _ hp => if_neg fun h => hp (cell_injective l (h.trans h₀.symm)))
        (fun h => absurd (Finset.mem_univ _) h), if_pos h₀]
  rw [Finset.sum_congr rfl fun c _ => h c, Finset.sum_comm]
  refine Finset.sum_congr rfl fun p _ => ?_
  rw [Finset.sum_eq_single (cell l p) (fun c _ hc => if_neg fun h => hc h.symm) (fun h => absurd (Finset.mem_univ _) h), if_pos rfl]

/-- The law that joins the two programs: contracting all 288 entries of a point against the selection weights is
    contracting the 96 entries of the line's three cells against the weights. Only `x · 0 = 0` and the regrouping of
    a finite sum are used, both valid on all extended reals. -/
theorem sum_select (X : FVec Ideal ⟨4, ![256, 512, 9, 32]⟩ .f32) (K : FVec Ideal ⟨2, ![96, 32]⟩ .f32)
    (b : Fin 256) (n : Fin 512) (l : Fin 8) (f : Fin 32) :
    (∑ c : Fin 9, ∑ e : Fin 32, X (ix4 b n c e) * selWeight K c e l f) = lineFeatAt X K b n l f := by
  unfold lineFeatAt
  rw [← sum_cells l fun c p => ∑ e : Fin 32, X (ix4 b n c e) * K (ix2 (cat3 p e) f)]
  refine Finset.sum_congr rfl fun c _ => ?_
  unfold selWeight
  cases posOf l c with
  | none => exact Finset.sum_eq_zero fun e _ => mul_zero _
  | some p => rfl

end Cert.Lines

end
-- ==== Proof.KEntry.lean ====
/-
  The two arrays the kernel's windows read, as the region finds them. The host lines before the region reshape the
  sample array [256, 512, 9, 32] to one row of 288 = 9 · 32 entries per sample point (row 512 b + n), and build the
  288 × 256 selection-weight array by writing 24 blocks of the weights into zeros.
-/
import proofs.«171795_j11570641895534_2_alg».proof.Proof.Gen.KernelIdeal.Frame
import Idealize.ShloMosaic.Lib.StableHlo.Run
import Idealize.ShloMosaic.PureOps.Ideal

noncomputable section

open Idealize.ShloMosaic Idealize.ShloMosaic.TcCoe Idealize.SL.Sem

namespace Cert.KernelIdeal.Entry

open Cert.KernelIdeal Cert.KernelIdeal.Gen Idealize.ShloMosaic.StableHlo

variable (m : (ℓ : Loc nD τ sig) → Buf (Elt Ideal) ℓ)

/-- Window 0's array at the region's entry: the samples, one row per sample point. -/
theorem V_rows (c : Dev nD) :
    (V m c main_v0 : S131072x288.Idx → EReal)
      = shapeCast S131072x288 (m ((c : Thread nD τ).loc main_arg0) : S256x512x9x32.Idx → EReal) shapeCasts_S256x512x9x32_S131072x288 := by
  show StableHlo.after hostOps0 (fun b => m (c, b)) (Proc.devRef .tc main_v0) = _
  after_results_simp
  rfl

end Cert.KernelIdeal.Entry

end
-- ==== Proof.LibScatterSet.lean ====
/-
  Reading an array after a scatter whose body keeps the update ("set").

  A scatter walks the update's indices in row-major order; at each one it computes the place in the operand where the
  update element lands (or nothing, when that place lies outside the operand) and replaces the element there. Two facts
  are proved for any scatter dimension numbers and any element type:

    * a place that NO update index lands on keeps the operand's element (whatever the body is);
    * a place that EXACTLY ONE update index `j` lands on holds the update's element at `j` (body = the update).

  Both are statements about a left fold of point replacements over a list, proved first for an arbitrary list.
-/
import Idealize.ShloMosaic.PureOps.ShapeOps

namespace Idealize.ShloMosaic.ScatterSet

section Fold

variable {ι κ α : Type} [DecidableEq κ]

/-- One step of the fold: the item `n` lands at `g n` (when that is a place) and the element there becomes
    `f (old element) (v n)`; every other place is untouched. -/
def step (g : ι → Option κ) (f : α → α → α) (v : ι → α) (r : κ → α) (n : ι) : κ → α :=
  match g n with
  | some i => fun i' => if i' = i then f (r i) (v n) else r i'
  | none => r

theorem step_apply_of_ne (g : ι → Option κ) (f : α → α → α) (v : ι → α) (r : κ → α) (n : ι) (i : κ)
    (h : g n ≠ some i) : step g f v r n i = r i := by
  unfold step
  cases hg : g n with
  | none => rfl
  | some i₀ =>
    have hne : i ≠ i₀ := fun e => h (by rw [hg, e])
    exact if_neg hne

theorem step_apply_of_eq (g : ι → Option κ) (v : ι → α) (r : κ → α) (n : ι) (i : κ)
    (h : g n = some i) : step g (fun _ b => b) v r n i = v n := by
  unfold step
  rw [h]
  exact if_pos rfl

/-- A place no item of the list lands on is left as it was by the whole fold. -/
theorem foldl_step_apply_of_miss (g : ι → Option κ) (f : α → α → α) (v : ι → α) (i : κ) :
    ∀ (L : List ι) (x : κ → α), (∀ n ∈ L, g n ≠ some i) → L.foldl (step g f v) x i = x i
  | [], _, _ => rfl
  | a :: t, x, h => by
    rw [List.foldl_cons, foldl_step_apply_of_miss g f v i t (step g f v x a) fun n hn => h n (List.mem_cons_of_mem a hn)]
    exact step_apply_of_ne g f v x a i (h a (List.mem_cons_self ..))

/-- A place exactly one item `n₀` of the list lands on holds, after the fold, that item's value (the body keeps the
    update). -/
theorem foldl_step_apply_of_hit (g : ι → Option κ) (v : ι → α) (i : κ) (n₀ : ι) (h₀ : g n₀ = some i) :
    ∀ (L : List ι) (x : κ → α), n₀ ∈ L → (∀ n ∈ L, g n = some i → n = n₀) →
      L.foldl (step g (fun _ b => b) v) x i = v n₀
  | [], _, hm, _ => absurd hm (List.not_mem_nil)
  | a :: t, x, hm, hu => by
    rw [List.foldl_cons]
    by_cases ht : n₀ ∈ t
    · exact foldl_step_apply_of_hit g v i n₀ h₀ t _ ht fun n hn => hu n (List.mem_cons_of_mem a hn)
    · have ha : a = n₀ := by
        rcases List.mem_cons.1 hm with e | e
        · exact e.symm
        · exact absurd e ht
      have hmiss : ∀ n ∈ t, g n ≠ some i := fun n hn e =>
        ht (hu n (List.mem_cons_of_mem a hn) e ▸ hn)
      rw [foldl_step_apply_of_miss g _ v i t _ hmiss, ha]
      exact step_apply_of_eq g v x n₀ i h₀

end Fold

section Scatter

variable {s si u : Shape} {α : Type} {w : Nat}

/-- The scatter is the fold of `step` over the update's positions in row-major order. -/
theorem scatter_eq_foldl (d : ScatterDims s si u) (f : α → α → α) (x : s.Idx → α) (idx : IVec si w) (upd : u.Idx → α) :
    Host.scatter d f x idx upd =
      (List.finRange u.numel).foldl
        (step (fun n => d.resultIdx? (u.rowMajor.symm n) idx) f fun n => upd (u.rowMajor.symm n)) x := by
  unfold Host.scatter
  congr 1
  funext r n
  unfold step
  beta_reduce
  cases d.resultIdx? (u.rowMajor.symm n) idx <;> rfl

/-- If no update index lands on the operand index `i`, the scatter leaves the operand's element there, whatever the
    body `f` is: `scatter x idx upd i = x i`. -/
theorem scatter_apply_of_miss (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_step_apply_of_miss _ f _ i _ x fun n _ => h (u.rowMajor.symm n)

/-- If the update index `j` lands on the operand index `i` and no other update index does, a scatter whose body
    returns the update puts the update's element there: `scatter x idx upd i = upd j`. -/
theorem scatter_apply_of_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  rw [scatter_eq_foldl]
  have h := foldl_step_apply_of_hit (fun n => d.resultIdx? (u.rowMajor.symm n) idx) (fun n => upd (u.rowMajor.symm n)) i
    (u.rowMajor j) (by simpa using hj) (List.finRange u.numel) x (List.mem_finRange _)
    (fun n _ hn => by
      have := huniq _ hn
      rw [← this, Equiv.apply_symm_apply])
  simpa using h

end Scatter

end Idealize.ShloMosaic.ScatterSet
-- ==== Proof.SelWeight.lean ====
/-
  The selection-weight array as the program builds it, and what it holds.

  The program starts from a 288 × 256 array of zeros and writes a 32 × 32 block of the 96 × 32 weight array into it 24
  times, once for each (line, position) pair: the block of position `p` (rows 32 p … 32 p + 31 of the weights) goes to
  rows 32 c …, columns 32 l … where `c` is the cell at position `p` of line `l`. A block write replaces exactly the
  entries of its block and nothing else, blocks of different (cell, line) pairs are disjoint, and no pair is written
  twice; so the entry at row 32 c + e, column 32 l + f is the weight K (32 p + e, f) when `c` is at position `p` of line
  `l`, and the initial zero when `c` is not on `l`: `built_apply`.
-/
import proofs.«171795_j11570641895534_2_alg».proof.KernelIdeal
import proofs.«171795_j11570641895534_2_alg».proof.Proof.Spec
import proofs.«171795_j11570641895534_2_alg».proof.Proof.LibScatterSet
import Idealize.ShloMosaic.Lib.Pipeline.Value
import Idealize.ShloMosaic.Lib.ValueIdx
import Idealize.ShloMosaic.Lib.IdealHost
import Idealize.ShloMosaic.Lib.ValueLayout

noncomputable section

namespace Cert.KernelIdeal.SelW

open Cert.KernelIdeal Cert.Lines Idealize.ShloMosaic Idealize.ShloMosaic.ValueIdx
open Cert.KernelIdeal.Facts₀ Cert.KernelIdeal.Facts

variable [Facts]

/-- The index pair `[a, b]` the program hands a block write: two scalars, each made a one-element array, laid end to
    end. -/
def idxPair (a b : BitVec 32) : (⟨S2, .i32⟩ : BufTy).Contents (Elt Ideal) :=
  concatenate S2 0 [⟨S1, (broadcastInDim S1 ![] bcast_S_S1 (constantI S_ 32 a) : (⟨S1, .i32⟩ : BufTy).Contents (Elt Ideal))⟩, ⟨S1, (broadcastInDim S1 ![] bcast_S_S1 (constantI S_ 32 b) : (⟨S1, .i32⟩ : BufTy).Contents (Elt Ideal))⟩] concatenates_S1_S1_S2_d0

/-- The three 32 × 32 blocks of the weights: rows 0–31, 32–63, 64–95. -/
def slab (K : FVec Ideal S96x32 .f32) : Fin 3 → FVec Ideal S32x32 .f32
  | 0 => extractStridedSlice S32x32 ![0, 0] K slices_S96x32_S32x32_0_0
  | 1 => extractStridedSlice S32x32 ![32, 0] K slices_S96x32_S32x32_32_0
  | 2 => extractStridedSlice S32x32 ![64, 0] K slices_S96x32_S32x32_64_0

/-- The array of zeros the writes start from. -/
def zeros : FVec Ideal S288x256 .f32 :=
  broadcastInDim S288x256 ![] bcast_S_S288x256 (constant (F := Ideal) S_ .f32 0x00000000#32)

/-- the 24 block writes in program order: (cell c, line l, position p) — row offset 32 c, column offset 32 l, slab p -/
def writes : List (Fin 9 × Fin 8 × Fin 3) :=
  [(0,0,0),(1,0,1),(2,0,2),(3,1,0),(4,1,1),(5,1,2),(6,2,0),(7,2,1),(8,2,2),(0,3,0),(3,3,1),(6,3,2),
   (1,4,0),(4,4,1),(7,4,2),(2,5,0),(5,5,1),(8,5,2),(0,6,0),(4,6,1),(8,6,2),(2,7,0),(4,7,1),(6,7,2)]

/-- One block write: slab `s.2.2` of the weights at rows `32 · s.1 …`, columns `32 · s.2.1 …` of `w`. -/
def put (K : FVec Ideal S96x32 .f32) (w : FVec Ideal S288x256 .f32) (s : Fin 9 × Fin 8 × Fin 3) : FVec Ideal S288x256 .f32 :=
  Host.scatter scatter_S288x256_S2_S32x32_01_n_01_0 (fun _ b => b) w
    (idxPair (BitVec.ofNat 32 (32 * s.1.val)) (BitVec.ofNat 32 (32 * s.2.1.val))) (slab K s.2.2)

/-- The array after all 24 writes. -/
def built (K : FVec Ideal S96x32 .f32) : FVec Ideal S288x256 .f32 := writes.foldl (put K) zeros

/-! ### The index pair read at its two positions -/

theorem idxPair_zero (a b : BitVec 32) : idxPair a b (ix1 (0 : Fin 2)) = a := by
  unfold idxPair
  refine (concatenate_pair_apply_left (t := S2) (s₁ := S1) (s₂ := S1) (0 : Fin 1) _ _ concatenates_S1_S1_S2_d0 _ rfl
    (ix1 (0 : Fin 1)) (fun b => ?_)).trans ?_
  · match b with | ⟨0, _⟩ => rfl
  · rfl

theorem idxPair_one (a b : BitVec 32) : idxPair a b (ix1 (1 : Fin 2)) = b := by
  unfold idxPair
  refine (concatenate_pair_apply_right (t := S2) (s₁ := S1) (s₂ := S1) (0 : Fin 1) _ _ concatenates_S1_S1_S2_d0 _ rfl rfl
    (ix1 (0 : Fin 1)) (fun b hb => ?_) ?_).trans ?_
  · match b with | ⟨0, _⟩ => exact absurd rfl hb
  · rfl
  · rfl

/-! ### Where an update index lands -/

/-- The scatter's dimension numbers, named. -/
abbrev sd : ScatterDims S288x256 S2 S32x32 := scatter_S288x256_S2_S32x32_01_n_01_0

theorem siIdx_zero (j : S32x32.Idx) (h : 0 < sd.scatterDimsToOperandDims.length) :
    sd.siIdx j ⟨0, h⟩ = ix1 (0 : Fin 2) := by
  funext b
  match b with
  | ⟨0, _⟩ => rfl

theorem siIdx_one (j : S32x32.Idx) (h : 1 < sd.scatterDimsToOperandDims.length) :
    sd.siIdx j ⟨1, h⟩ = ix1 (1 : Fin 2) := by
  funext b
  match b with
  | ⟨0, _⟩ => rfl

theorem start_zero (j : S32x32.Idx) (idx : IVec S2 32) : sd.start j idx 0 = (idx (ix1 (0 : Fin 2))).toInt := by
  unfold ScatterDims.start
  have h : (0 : Fin S288x256.rank) ∈ sd.scatterDimsToOperandDims :=
    show (0 : Fin S288x256.rank) ∈ ([0, 1] : List (Fin S288x256.rank)) by decide
  rw [dif_pos h]
  exact congrArg (fun k => (idx k).toInt) (siIdx_zero j _)

theorem start_one (j : S32x32.Idx) (idx : IVec S2 32) : sd.start j idx 1 = (idx (ix1 (1 : Fin 2))).toInt := by
  unfold ScatterDims.start
  have h : (1 : Fin S288x256.rank) ∈ sd.scatterDimsToOperandDims :=
    show (1 : Fin S288x256.rank) ∈ ([0, 1] : List (Fin S288x256.rank)) by decide
  rw [dif_pos h]
  exact congrArg (fun k => (idx k).toInt) (siIdx_one j _)

theorem window_zero (j : S32x32.Idx) : sd.window j 0 = (j 0).val := by
  unfold ScatterDims.window
  have h : (0 : Fin S288x256.rank) ∈ sd.sKept :=
    show (0 : Fin S288x256.rank) ∈ S288x256.kept ([] : List (Fin S288x256.rank)) by decide
  rw [dif_pos h]
  rfl

theorem window_one (j : S32x32.Idx) : sd.window j 1 = (j 1).val := by
  unfold ScatterDims.window
  have h : (1 : Fin S288x256.rank) ∈ sd.sKept :=
    show (1 : Fin S288x256.rank) ∈ S288x256.kept ([] : List (Fin S288x256.rank)) by decide
  rw [dif_pos h]
  rfl

/-- A small natural number as a 32-bit word, read signed, is itself. -/
theorem toInt_ofNat32 (n : Nat) (h : n < 2147483648) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- With the index pair `[32 c₀, 32 l₀]`, the update index (e, f) lands at row 32 c₀ + e, column 32 l₀ + f. -/
theorem resultIdx_block (c₀ : Fin 9) (l₀ : Fin 8) (e f : Fin 32) :
    sd.resultIdx? (ix2 e f) (idxPair (BitVec.ofNat 32 (32 * c₀.val)) (BitVec.ofNat 32 (32 * l₀.val))) =
      some (ix2 (cat9 c₀ e) (cat8 l₀ f)) := by
  have hs0 : sd.start (ix2 e f) (idxPair (BitVec.ofNat 32 (32 * c₀.val)) (BitVec.ofNat 32 (32 * l₀.val))) 0 = ((32 * c₀.val : Nat) : Int) := by
    rw [start_zero, idxPair_zero, toInt_ofNat32 _ (by omega)]
  have hs1 : sd.start (ix2 e f) (idxPair (BitVec.ofNat 32 (32 * c₀.val)) (BitVec.ofNat 32 (32 * l₀.val))) 1 = ((32 * l₀.val : Nat) : Int) := by
    rw [start_one, idxPair_one, toInt_ofNat32 _ (by omega)]
  have hw0 : sd.window (ix2 e f) 0 = e.val := window_zero _
  have hw1 : sd.window (ix2 e f) 1 = f.val := window_one _
  unfold ScatterDims.resultIdx?
  rw [dif_pos (Fin.forall_fin_two.2 ⟨by
    rw [hs0, hw0]
    show (0 : Int) ≤ _ ∧ _ < ((288 : Nat) : Int)
    omega, by
    rw [hs1, hw1]
    show (0 : Int) ≤ _ ∧ _ < ((256 : Nat) : Int)
    omega⟩)]
  refine congrArg some (funext fun a => ?_)
  match a with
  | ⟨0, _⟩ =>
    refine Fin.ext ?_
    show (sd.start _ _ 0 + (sd.window _ 0 : Int)).toNat = 32 * c₀.val + e.val
    rw [hs0, hw0]; omega
  | ⟨1, _⟩ =>
    refine Fin.ext ?_
    show (sd.start _ _ 1 + (sd.window _ 1 : Int)).toNat = 32 * l₀.val + f.val
    rw [hs1, hw1]; omega

/-! ### One block write -/

/-- Block `p` of the weights at (e, f) is the weight at row 32 p + e, column f. -/
theorem slab_apply (K : FVec Ideal S96x32 .f32) (p : Fin 3) (e f : Fin 32) :
    slab K p (ix2 e f) = K (ix2 (cat3 p e) f) := by
  match p with
  | 0 =>
    refine extractStridedSlice_apply _ K slices_S96x32_S32x32_0_0 (ix2 e f) (ix2 (cat3 0 e) f) fun a => ?_
    match a with
    | ⟨0, _⟩ => show 32 * 0 + e.val = 0 + e.val; omega
    | ⟨1, _⟩ => show f.val = 0 + f.val; omega
  | 1 =>
    refine extractStridedSlice_apply _ K slices_S96x32_S32x32_32_0 (ix2 e f) (ix2 (cat3 1 e) f) fun a => ?_
    match a with
    | ⟨0, _⟩ => show 32 * 1 + e.val = 32 + e.val; omega
    | ⟨1, _⟩ => show f.val = 0 + f.val; omega
  | 2 =>
    refine extractStridedSlice_apply _ K slices_S96x32_S32x32_64_0 (ix2 e f) (ix2 (cat3 2 e) f) fun a => ?_
    match a with
    | ⟨0, _⟩ => show 32 * 2 + e.val = 64 + e.val; omega
    | ⟨1, _⟩ => show f.val = 0 + f.val; omega

/-- A block write at (cell c₀, line l₀) read at row 32 c + e, column 32 l + f: inside the block (c = c₀ and l = l₀) it
    is the slab's entry, outside it the array is as it was. -/
theorem put_apply (K : FVec Ideal S96x32 .f32) (w : FVec Ideal S288x256 .f32) (c₀ : Fin 9) (l₀ : Fin 8) (p : Fin 3)
    (c : Fin 9) (e : Fin 32) (l : Fin 8) (f : Fin 32) :
    put K w (c₀, l₀, p) (ix2 (cat9 c e) (cat8 l f)) =
      if c = c₀ ∧ l = l₀ then K (ix2 (cat3 p e) f) else w (ix2 (cat9 c e) (cat8 l f)) := by
  show Host.scatter sd (fun _ b => b) w (idxPair (BitVec.ofNat 32 (32 * c₀.val)) (BitVec.ofNat 32 (32 * l₀.val)))
    (slab K p) (ix2 (cat9 c e) (cat8 l f)) = _
  by_cases h : c = c₀ ∧ l = l₀
  · rw [if_pos h]
    obtain ⟨rfl, rfl⟩ := h
    refine (ScatterSet.scatter_apply_of_hit sd w _ (slab K p) _ (ix2 e f) (resultIdx_block c l e f) fun j' hj' => ?_).trans
      (slab_apply K p e f)
    obtain ⟨e', f', rfl⟩ : ∃ (e' f' : Fin 32), j' = ix2 e' f' := ⟨j' 0, j' 1, eq_ix2 j'⟩
    rw [resultIdx_block] at hj'
    have hq := Option.some.inj hj'
    have h0 : (cat9 c e').val = (cat9 c e).val := congrArg (fun i : S288x256.Idx => (i 0).val) hq
    have h1 : (cat8 l f').val = (cat8 l f).val := congrArg (fun i : S288x256.Idx => (i 1).val) hq
    have e0 : e' = e := Fin.ext (by simp only [cat9] at h0; omega)
    have e1 : f' = f := Fin.ext (by simp only [cat8] at h1; omega)
    rw [e0, e1]
  · rw [if_neg h]
    refine ScatterSet.scatter_apply_of_miss sd _ w _ (slab K p) _ fun j' hj' => h ?_
    obtain ⟨e', f', rfl⟩ : ∃ (e' f' : Fin 32), j' = ix2 e' f' := ⟨j' 0, j' 1, eq_ix2 j'⟩
    rw [resultIdx_block] at hj'
    have hq := Option.some.inj hj'
    have h0 : (cat9 c₀ e').val = (cat9 c e).val := congrArg (fun i : S288x256.Idx => (i 0).val) hq
    have h1 : (cat8 l₀ f').val = (cat8 l f).val := congrArg (fun i : S288x256.Idx => (i 1).val) hq
    simp only [cat9] at h0
    simp only [cat8] at h1
    exact ⟨Fin.ext (by omega), Fin.ext (by omega)⟩

/-! ### All the writes -/

/-- Which position's block the writes `ws` leave at (cell c, line l): the last write there, `acc` when there is none. -/
def lastAt (c : Fin 9) (l : Fin 8) (acc : Option (Fin 3)) (ws : List (Fin 9 × Fin 8 × Fin 3)) : Option (Fin 3) :=
  ws.foldl (fun a s => if c = s.1 ∧ l = s.2.1 then some s.2.2 else a) acc

/-- The entry a block record stands for: the weight of position `p`, or the value `z` when no block was written. -/
def entry (K : FVec Ideal S96x32 .f32) (z : EReal) (e f : Fin 32) : Option (Fin 3) → EReal
  | some p => K (ix2 (cat3 p e) f)
  | none => z

/-- Any sequence of block writes, read at row 32 c + e, column 32 l + f: the entry of the last write at (c, l), or
    what was there before. -/
theorem foldl_put_apply (K : FVec Ideal S96x32 .f32) (z : EReal) (c : Fin 9) (e : Fin 32) (l : Fin 8) (f : Fin 32) :
    ∀ (ws : List (Fin 9 × Fin 8 × Fin 3)) (w : FVec Ideal S288x256 .f32) (acc : Option (Fin 3)),
      w (ix2 (cat9 c e) (cat8 l f)) = entry K z e f acc →
      ws.foldl (put K) w (ix2 (cat9 c e) (cat8 l f)) = entry K z e f (lastAt c l acc ws)
  | [], _, _, h => h
  | (c₀, l₀, p) :: ws, w, acc, h => by
    rw [List.foldl_cons]
    refine foldl_put_apply K z c e l f ws _ (if c = c₀ ∧ l = l₀ then some p else acc) ?_
    rw [put_apply]
    by_cases hc : c = c₀ ∧ l = l₀
    · rw [if_pos hc, if_pos hc]; rfl
    · rw [if_neg hc, if_neg hc]; exact h

/-- In the program's list of writes, the block left at (cell c, line l) is the one of the position `c` has on `l`, and
    none when `c` is not on `l`. -/
theorem lastAt_writes : ∀ (c : Fin 9) (l : Fin 8), lastAt c l none writes = posOf l c := by decide

/-- The starting array is zero everywhere. -/
theorem zeros_apply (i : S288x256.Idx) : zeros i = 0 := by
  unfold zeros
  rw [broadcastInDim_scalar_apply, constant_apply, Ideal.ofBits_zero_f32]

/-- The array the program builds holds the selection weights: at row 32 c + e, column 32 l + f, the weight
    K (32 p + e, f) when `c` is the cell at position `p` of line `l`, and zero when `c` is not on `l`. -/
theorem built_apply (K : FVec Ideal S96x32 .f32) (c : Fin 9) (e : Fin 32) (l : Fin 8) (f : Fin 32) :
    built K (ix2 (cat9 c e) (cat8 l f)) = selWeight K c e l f := by
  unfold built
  rw [foldl_put_apply K 0 c e l f writes zeros none (zeros_apply _), lastAt_writes]
  unfold selWeight entry
  cases posOf l c <;> rfl

end Cert.KernelIdeal.SelW

end
-- ==== Proof.KWeights.lean ====
/-
  The selection-weight array as the region finds it. The host lines before the region start from zeros and write, for
  each of the 24 (line, position) pairs, the 32 × 32 slab of the weights that position uses at the rows of the
  position's cell and the columns of the line. Read at row (cell c, entry e) and column (line l, feature f) the result
  is the weight K (32 p + e, f) when c is the cell at position p of line l, and zero when c is not on the line.
-/
import proofs.«171795_j11570641895534_2_alg».proof.Proof.Gen.KernelIdeal.Frame
import proofs.«171795_j11570641895534_2_alg».proof.Proof.Spec
import proofs.«171795_j11570641895534_2_alg».proof.Proof.SelWeight
import Idealize.ShloMosaic.Lib.StableHlo.Run
import Idealize.ShloMosaic.PureOps.Ideal

noncomputable section

open Idealize.ShloMosaic Idealize.ShloMosaic.TcCoe Idealize.SL.Sem Idealize.ShloMosaic.ValueIdx

namespace Cert.KernelIdeal.Entry

open Cert.KernelIdeal Cert.KernelIdeal.Gen Cert.Lines Idealize.ShloMosaic.StableHlo

variable (m : (ℓ : Loc nD τ sig) → Buf (Elt Ideal) ℓ)

/-- The pair [a, b] of two one-element index vectors, as one function of the two. -/
def pairOf (a b : (⟨S1, .i32⟩ : BufTy).Contents (Elt Ideal)) : (⟨S2, .i32⟩ : BufTy).Contents (Elt Ideal) :=
  concatenate S2 0 [⟨S1, a⟩, ⟨S1, b⟩] concatenates_S1_S1_S2_d0

/-- The host line that joins two one-element index vectors applies `pairOf`. -/
theorem pair_fun : ((fun a b => concatenate S2 0 [⟨S1, a⟩, ⟨S1, b⟩] concatenates_S1_S1_S2_d0) :
    (⟨S1, .i32⟩ : BufTy).Contents (Elt Ideal) → (⟨S1, .i32⟩ : BufTy).Contents (Elt Ideal) → (⟨S2, .i32⟩ : BufTy).Contents (Elt Ideal)) = pairOf := rfl

/-- One block write as the host lines spell it — the start pair from two splatted constants, the slab a slice of the
    weights — is one step of the specification's fold. -/
theorem put_spell (K : FVec Ideal S96x32 .f32) (w w' : FVec Ideal S288x256 .f32) (s : Fin 9 × Fin 8 × Fin 3) (a b : BitVec 32)
    (u : FVec Ideal S32x32 .f32) (hw : w' = w) (ha : a = BitVec.ofNat 32 (32 * s.1.val)) (hb : b = BitVec.ofNat 32 (32 * s.2.1.val))
    (hu : u = SelW.slab K s.2.2) :
    Host.scatter scatter_S288x256_S2_S32x32_01_n_01_0 (fun _ b => b) w'
        (pairOf (broadcastInDim S1 ![] bcast_S_S1 (constantI S_ 32 a)) (broadcastInDim S1 ![] bcast_S_S1 (constantI S_ 32 b))) u
      = SelW.put K w s := by
  subst hw ha hb hu
  rfl

/-- Window 1's array at the region's entry is the fold of the 24 block writes over zeros. -/
theorem V_weights (c : Dev nD) :
    (V m c main_v121 : S288x256.Idx → EReal) = SelW.built (m ((c : Thread nD τ).loc main_arg1)) := by
  show StableHlo.after hostOps0 (fun b => m (c, b)) (Proc.devRef .tc main_v121) = _
  simp (disch := decide) only [after_cons, after_nil, pair_fun,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  unfold SelW.built SelW.writes
  simp only [List.foldl_cons, List.foldl_nil]
  repeat (refine put_spell _ _ _ _ _ _ _ ?_ rfl rfl rfl)
  rfl

/-- Its entry at row j, column n: the selection weight of (cell j / 32, entry j % 32) for (line n / 32, feature n % 32). -/
theorem V_weights_apply (c : Dev nD) (j : Fin 288) (n : Fin 256) :
    (V m c main_v121 : S288x256.Idx → EReal) (ix2 j n)
      = selWeight (m ((c : Thread nD τ).loc main_arg1)) (hi288 j) (lo288 j) (hi256 n) (lo256 n) := by
  rw [V_weights]
  have h := SelW.built_apply (m ((c : Thread nD τ).loc main_arg1)) (hi288 j) (lo288 j) (hi256 n) (lo256 n)
  rwa [cat9_hi_lo, cat8_hi_lo] at h

end Cert.KernelIdeal.Entry

end
-- ==== Proof.KPay.lean ====
/-
  The body's arithmetic at one entry. The body loads the point's block of sample rows (4096 × 288) and the whole
  selection-weight array (288 × 256), rounds both to bf16 — the identity on the extended reals — and multiplies them
  into a zero accumulator: entry (r, n) of what it stores is the sum over the 288 contracted entries of row r of the
  first times column n of the second.
-/
import proofs.«171795_j11570641895534_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx
open scoped BigOperators

namespace Cert.KernelIdeal.Pay

open Cert.KernelIdeal Cert.KernelIdeal.Gen

/-- The matrix product's left operand index at output (r, n) and contracted coordinate j is (r, j). -/
theorem lhs_at (r : Fin 4096) (n : Fin 256) (j : Fin 288) :
    dot_S4096x288_S288x256_S4096x256_1_0_0_1_n_n.lhsIdx (ix2 r n) ((contrEquiv1 dot_S4096x288_S288x256_S4096x256_1_0_0_1_n_n 288 rfl rfl).symm j) = ix2 r j := by
  have c2 := contrEquiv1_symm_val dot_S4096x288_S288x256_S4096x256_1_0_0_1_n_n 288 rfl rfl j
  funext ax; apply Fin.ext
  match ax with
  | ⟨0, _⟩ => simp [DotDims.lhsIdx, dot_S4096x288_S288x256_S4096x256_1_0_0_1_n_n]; rfl
  | ⟨1, _⟩ => simp [DotDims.lhsIdx, dot_S4096x288_S288x256_S4096x256_1_0_0_1_n_n]; exact c2

/-- Its right operand index there is (j, n). -/
theorem rhs_at (r : Fin 4096) (n : Fin 256) (j : Fin 288) :
    dot_S4096x288_S288x256_S4096x256_1_0_0_1_n_n.rhsIdx (ix2 r n) ((contrEquiv1 dot_S4096x288_S288x256_S4096x256_1_0_0_1_n_n 288 rfl rfl).symm j) = ix2 j n := by
  have c2 := contrEquiv1_symm_val dot_S4096x288_S288x256_S4096x256_1_0_0_1_n_n 288 rfl rfl j
  funext ax; apply Fin.ext
  match ax with
  | ⟨0, _⟩ => simp [DotDims.rhsIdx, dot_S4096x288_S288x256_S4096x256_1_0_0_1_n_n]; exact c2
  | ⟨1, _⟩ => simp [DotDims.rhsIdx, dot_S4096x288_S288x256_S4096x256_1_0_0_1_n_n]; rfl

/-- Entry (r, n) of the stored block: row r of the loaded sample rows against column n of the loaded weights. -/
theorem pay_apply (x0 : FVec Ideal S4096x288 .f32) (x1 : FVec Ideal S288x256 .f32) (r : Fin 4096) (n : Fin 256) :
    k0_pay1 (F := Ideal) x0 x1 (ix2 r n) = ∑ j : Fin 288, x0 (ix2 r j) * x1 (ix2 j n) := by
  unfold k0_pay1
  show FloatOps.matmul dot_S4096x288_S288x256_S4096x256_1_0_0_1_n_n none _ _ (constant S4096x256 .f32 0x00000000#32) (ix2 r n) = _
  rw [Ideal.matmul_constant_zero_apply, ← Equiv.sum_comp (contrEquiv1 dot_S4096x288_S288x256_S4096x256_1_0_0_1_n_n 288 rfl rfl).symm]
  refine Finset.sum_congr rfl fun j _ => ?_
  rw [lhs_at, rhs_at, shapeCast_self, shapeCast_self]
  rfl

end Cert.KernelIdeal.Pay

end
-- ==== Proof.KBlocks.lean ====
/-
  From the blocks to the array. The grid has 32 points; point t reads rows 4096 t … 4096 t + 4095 of the sample rows,
  the whole selection-weight array, and writes rows 4096 t … of the 131072 × 256 result. Entry (R, 32 l + f) of the
  result is therefore the contraction of sample point R = 512 b + n against column (l, f) of the selection weights,
  which the joining law turns into feature f of line l at the point (b, n).
-/
import proofs.«171795_j11570641895534_2_alg».proof.Proof.Gen.KernelIdeal.Frame
import proofs.«171795_j11570641895534_2_alg».proof.Proof.Spec
import proofs.«171795_j11570641895534_2_alg».proof.Proof.KEntry
import proofs.«171795_j11570641895534_2_alg».proof.Proof.KWeights
import proofs.«171795_j11570641895534_2_alg».proof.Proof.KPay
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.Lines

variable (m : (ℓ : Loc nD τ sig) → Buf (Elt Ideal) ℓ)

/-- A row of the flattened samples is a sample point: row R is the point (R / 512, R % 512). -/
def hiRow (R : Fin 131072) : Fin 256 := ⟨R.val / 512, by omega⟩
def loRow (R : Fin 131072) : Fin 512 := ⟨R.val % 512, by omega⟩

/-- The region's result as one function of the argument arrays: row R, column 32 l + f holds feature f of line l of
    sample point R. -/
def rowsOut (X : FVec Ideal ⟨4, ![256, 512, 9, 32]⟩ .f32) (K : FVec Ideal ⟨2, ![96, 32]⟩ .f32) : FVec Ideal ⟨2, ![131072, 256]⟩ .f32 :=
  fun i => lineFeatAt X K (hiRow (i 0)) (loRow (i 0)) (hi256 (i 1)) (lo256 (i 1))

theorem hz : (![0, 0] : Fin 2 → Nat) = fun _ => 0 := funext fun a => by fin_cases a <;> rfl

/-- Entry (R, j) of the flattened samples is entry (j / 32, j % 32) of sample point R. -/
theorem rows_entry (c : Dev nD) (R : Fin 131072) (j : Fin 288) :
    (V m c main_v0 : S131072x288.Idx → EReal) (ix2 R j)
      = (m ((c : Thread nD τ).loc main_arg0) : S256x512x9x32.Idx → EReal) (ix4 (hiRow R) (loRow R) (hi288 j) (lo288 j)) := by
  rw [Entry.V_rows]
  refine shapeCast_apply _ _ _ _ ?_
  show (S256x512x9x32.rowMajor _).val = (S131072x288.rowMajor _).val
  rw [Shape.rowMajor_val_four, Shape.rowMajor_val_two]
  show (((R.val / 512) * 512 + R.val % 512) * 9 + j.val / 32) * 32 + j.val % 32 = R.val * 288 + j.val
  omega

/-- The printed index maps over the grid: windows 0 and 2 move down the rows with the point, window 1 stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is rows 4096 t … of the flattened samples. -/
theorem iblk0_apply (c : Dev nD) (t : Fin cfg0.N) (r : Fin 4096) (j : Fin 288) (R : Fin 131072) (hR : R.val = 4096 * t.val + r.val) :
    (iblk m c 0 t : Vec Ideal S4096x288 .f32) (ix2 r j) = (V m c main_v0 : S131072x288.Idx → EReal) (ix2 R j) := by
  obtain ⟨e0, e1, -⟩ := idx_facts t
  unfold iblk
  rw [View.read_apply]
  show V m c main_v0 _ = V m c main_v0 _
  refine congrArg (V m c main_v0) ?_
  funext a
  apply Fin.ext
  match a with
  | ⟨0, _⟩ => show win0_0.index t 0 * 4096 + 1 * r.val = R.val; rw [e0, hR]; omega
  | ⟨1, _⟩ => show win0_0.index t 1 * 288 + 1 * j.val = j.val; rw [e1]; omega

/-- Window 1's block at every point is the whole selection-weight array. -/
theorem iblk1_apply (c : Dev nD) (t : Fin cfg0.N) (j : Fin 288) (n : Fin 256) :
    (iblk m c 1 t : Vec Ideal S288x256 .f32) (ix2 j n) = (V m c main_v121 : S288x256.Idx → EReal) (ix2 j n) := by
  obtain ⟨-, -, e2, e3, -⟩ := idx_facts t
  unfold iblk
  rw [View.read_apply]
  show V m c main_v121 _ = V m c main_v121 _
  refine congrArg (V m c main_v121) ?_
  funext a
  apply Fin.ext
  match a with
  | ⟨0, _⟩ => show win0_1.index t 0 * 288 + 1 * j.val = j.val; rw [e2]; omega
  | ⟨1, _⟩ => show win0_1.index t 1 * 256 + 1 * n.val = n.val; rw [e3]; omega

/-- What point t's body stores at (r, n): the feature of sample point 4096 t + r that column n names. -/
theorem stored_apply (c : Dev nD) (t : Fin cfg0.N) (r : Fin 4096) (n : Fin 256) (R : Fin 131072) (hR : R.val = 4096 * t.val + r.val) :
    k0_pay1 (F := Ideal) (iblk m c 0 t) (iblk m c 1 t) (ix2 r n)
      = lineFeatAt (m ((c : Thread nD τ).loc main_arg0)) (m ((c : Thread nD τ).loc main_arg1)) (hiRow R) (loRow R) (hi256 n) (lo256 n) := by
  refine (Pay.pay_apply (iblk m c 0 t) (iblk m c 1 t) r n).trans ?_
  rw [← sum_select, sum_split288]
  refine Finset.sum_congr rfl fun cl _ => Finset.sum_congr rfl fun e _ => ?_
  rw [iblk0_apply m c t r (cat9 cl e) R hR, iblk1_apply m c t (cat9 cl e) n, rows_entry, Entry.V_weights_apply,
    hi288_cat9, lo288_cat9]

/-- WHAT POINT t WRITES BACK is block t of `rowsOut` of the argument arrays. -/
theorem flushed_eq (c : Dev nD) (t : Fin cfg0.N) :
    (dats m 0 c).flushed 2 t = ((cfg0.win 2).blk t).view.read (Elt Ideal)
      (rowsOut (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S4096x288) hz, View.ld_unit_zero (S := S288x256) hz]
  obtain ⟨-, -, -, -, e4, e5⟩ := idx_facts t
  funext y
  obtain ⟨r, n, rfl⟩ : ∃ (r : Fin 4096) (n : Fin 256), y = ix2 r n := ⟨y 0, y 1, eq_ix2 y⟩
  have hN : cfg0.N = 32 := N_0
  have ht : t.val < 32 := hN ▸ t.isLt
  have hRlt : 4096 * t.val + r.val < 131072 := by have := r.isLt; omega
  show k0_pay1 (F := Ideal) (iblk m c 0 t) (iblk m c 1 t) (ix2 r n)
    = rowsOut (m ((c : Thread nD τ).loc main_arg0)) (m ((c : Thread nD τ).loc main_arg1)) (((cfg0.win 2).blk t).view.emb (ix2 r n))
  have hemb : ((cfg0.win 2).blk t).view.emb (ix2 r n) = ix2 (⟨4096 * t.val + r.val, hRlt⟩ : Fin 131072) n := by
    funext a
    apply Fin.ext
    match a with
    | ⟨0, _⟩ => show win0_2.index t 0 * 4096 + 1 * r.val = 4096 * t.val + r.val; rw [e4]; omega
    | ⟨1, _⟩ => show win0_2.index t 1 * 256 + 1 * n.val = n.val; rw [e5]; omega
  rw [hemb]
  exact stored_apply m c t r n ⟨4096 * t.val + r.val, hRlt⟩ rfl

/-- An index of the result is in point t's block iff each coordinate is in the block's range on its axis. -/
theorem mem_blk (t : Fin cfg0.N) (i : S131072x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v122).slice (win0_2.rect t)).set ↔ _
  rw [View.set_slice_whole, Rect.mem_set_unit]
  exact Iff.rfl

/-- THE ARRAY after the region: the 32 row blocks tile it, so it holds `rowsOut` of the arguments everywhere. -/
theorem final (c : Dev nD) :
    (dats m 0 c).arrAt 2 cfg0.N = rowsOut (m ((c : Thread nD τ).loc main_arg0)) (m ((c : Thread nD τ).loc main_arg1)) :=
  (dats m 0 c).arrAt_eq_of_cover 2 _ (fun t _ => flushed_eq m c t) fun i => by
    have hN : cfg0.N = 32 := N_0
    have hi0 : (i 0).val < 131072 := (i 0).isLt
    have hi1 : (i 1).val < 256 := (i 1).isLt
    let t : Fin cfg0.N := ⟨(i 0).val / 4096, by rw [hN]; omega⟩
    obtain ⟨-, -, -, -, e4, e5⟩ := idx_facts t
    refine ⟨t, flush0_2 t, ?_⟩
    rw [mem_blk]
    intro a
    match a with
    | ⟨0, _⟩ => show win0_2.index t 0 * 4096 ≤ (i 0).val ∧ (i 0).val < win0_2.index t 0 * 4096 + 4096; rw [e4]; show (i 0).val / 4096 * 4096 ≤ (i 0).val ∧ (i 0).val < (i 0).val / 4096 * 4096 + 4096; omega
    | ⟨1, _⟩ => show win0_2.index t 1 * 256 ≤ (i 1).val ∧ (i 1).val < win0_2.index t 1 * 256 + 256; rw [e5]; omega

end Cert.KernelIdeal.Blocks

end
-- ==== Proof.KRun.lean ====
/-
  The line after the region and the kernel program's run. The region's 131072 × 256 result is reshaped to
  [256, 512, 256]: entry (b, n, k) is entry (512 b + n, k) of the region's result, so it is feature k % 32 of line
  k / 32 at the point (b, n) — the specification's array.
-/
import proofs.«171795_j11570641895534_2_alg».proof.Proof.Gen.KernelIdeal.Frame
import proofs.«171795_j11570641895534_2_alg».proof.Proof.Spec
import proofs.«171795_j11570641895534_2_alg».proof.Proof.KBlocks
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.Lines Idealize.ShloMosaic.StableHlo

variable (m : (ℓ : Loc nD τ sig) → Buf (Elt Ideal) ℓ) (ρ : Dev nD → PrngReg)

/-- The reshape of the region's result, entry by entry. -/
theorem reshape_rowsOut (X : FVec Ideal ⟨4, ![256, 512, 9, 32]⟩ .f32) (K : FVec Ideal ⟨2, ![96, 32]⟩ .f32) :
    shapeCast S256x512x256 (Blocks.rowsOut X K : S131072x256.Idx → EReal) shapeCasts_S131072x256_S256x512x256 = lineFeat X K := by
  funext i
  obtain ⟨b, n, k, rfl⟩ : ∃ (b : Fin 256) (n : Fin 512) (k : Fin 256), i = ix3 b n k := ⟨i 0, i 1, i 2, eq_ix3 i⟩
  have hlt : 512 * b.val + n.val < 131072 := by have := b.isLt; have := n.isLt; omega
  refine (shapeCast_apply _ _ (ix3 b n k) (ix2 (⟨512 * b.val + n.val, hlt⟩ : Fin 131072) k) ?_).trans ?_
  · rw [Shape.rowMajor_val_two, Shape.rowMajor_val_three]
    show (512 * b.val + n.val) * 256 + k.val = (b.val * 512 + n.val) * 256 + k.val
    omega
  · show lineFeatAt X K (Blocks.hiRow ⟨512 * b.val + n.val, hlt⟩) (Blocks.loRow ⟨512 * b.val + n.val, hlt⟩) (hi256 k) (lo256 k)
      = lineFeatAt X K b n (hi256 k) (lo256 k)
    have h1 : Blocks.hiRow ⟨512 * b.val + n.val, hlt⟩ = b := Fin.ext (by show (512 * b.val + n.val) / 512 = b.val; have := n.isLt; omega)
    have h2 : Blocks.loRow ⟨512 * b.val + n.val, hlt⟩ = n := Fin.ext (by show (512 * b.val + n.val) % 512 = n.val; have := n.isLt; omega)
    rw [h1, h2]

/-- What the program's result buffer holds after the line behind the region: the specification's array of the
    argument arrays. -/
theorem result_eq (c : Dev nD) :
    Pipeline.afterTail₀ cfgs (dats m) 0 (V0 m) [hostOps1] c main_v123
      = lineFeat (m ((c : Thread nD τ).loc main_arg0)) (m ((c : Thread nD τ).loc main_arg1)) := by
  unfold Pipeline.afterTail₀
  show StableHlo.after hostOps1 _ (Proc.devRef .tc main_v123) = _
  after_results
  have hw : Pipeline.withArrays (cfgs 0).spec c (V0 m c) (fun w => (dats m 0 c).arrAt w (cfgs 0).N) (Proc.devRef .tc main_v122)
      = Blocks.rowsOut (m ((c : Thread nD τ).loc main_arg0)) (m ((c : Thread nD τ).loc main_arg1)) :=
    (Pipeline.withArrays_arr spec0 launch0.win.arr_inj c _ _ 2).trans (Blocks.final m c)
  rw [hw]
  exact reshape_rowsOut _ _

/-- THE KERNEL PROGRAM'S RUN, read: every weakly fair execution terminates with the result buffer at the
    specification's array of the argument arrays, and the argument arrays unchanged. -/
theorem run : θ_run defs (onTc (τ := τ) (main (F := Ideal))) ⟨m, fun _ => 0, ρ⟩ (fun r => ∀ c : Dev nD,
      r.2.mem ((c.tc : Thread nD τ).loc main_v123) = lineFeat (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v123 (Pipeline.mem_restRefs_of main_v123 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Run

end
-- ==== Proof.RefRun.lean ====
/-
  The reference program's run, read back: its thirteen host operations as a list, and what the result buffer holds
  once they have run in order — the composed term of the two argument arrays.
-/
import proofs.«171795_j11570641895534_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The literal table of cell numbers, one row per line. -/
def table : (⟨S8x3, .i32⟩ : BufTy).Contents (Elt F) := fun i => lit0 (S8x3.rowMajor i)

/-- The table after the index normalisation (a negative entry counted from the end of the axis of 9). -/
def normTable : (⟨S8x3, .i32⟩ : BufTy).Contents (Elt F) :=
  select (cmpi .slt (table (F := F)) (broadcastInDim S8x3 ![] bcast_S_S8x3 (constantI S_ 32 0#32 : (⟨S_, .i32⟩ : BufTy).Contents (Elt F)) : (⟨S8x3, .i32⟩ : BufTy).Contents (Elt F)) : (⟨S8x3, .i1⟩ : BufTy).Contents (Elt F))
    (addi (table (F := F)) (broadcastInDim S8x3 ![] bcast_S_S8x3 (constantI S_ 32 9#32 : (⟨S_, .i32⟩ : BufTy).Contents (Elt F)) : (⟨S8x3, .i32⟩ : BufTy).Contents (Elt F)) : (⟨S8x3, .i32⟩ : BufTy).Contents (Elt F))
    (table (F := F))

/-- The start indices the gather reads: the normalised table with a trailing unit axis. -/
def starts : (⟨S8x3x1, .i32⟩ : BufTy).Contents (Elt F) :=
  broadcastInDim S8x3x1 ![0, 1] bcast_S8x3_S8x3x1_0_1 (normTable (F := F))

/-- The composed term: gather the cells of each line, lay them end to end, contract against the weights, lay the
    lines' features end to end. -/
def refTerm (X : (⟨S256x512x9x32, .f32⟩ : BufTy).Contents (Elt F)) (K : (⟨S96x32, .f32⟩ : BufTy).Contents (Elt F)) :
    (⟨S256x512x256, .f32⟩ : BufTy).Contents (Elt F) :=
  shapeCast S256x512x256
    (Host.dotGeneral dot_S256x512x8x96_S96x32_S256x512x8x32_3_0_012_1_n_n none
      (shapeCast S256x512x8x96
        (Host.gather gather_S256x512x9x32_S8x3x1_S256x512x8x3x32_014_2_n_n_2_2_256512132 X (starts (F := F)) : (⟨S256x512x8x3x32, .f32⟩ : BufTy).Contents (Elt F))
        shapeCasts_S256x512x8x3x32_S256x512x8x96 : (⟨S256x512x8x96, .f32⟩ : BufTy).Contents (Elt F))
      K : (⟨S256x512x8x32, .f32⟩ : BufTy).Contents (Elt F))
    shapeCasts_S256x512x8x32_S256x512x256

/-- @main's 13 operations, in order. -/
abbrev ops : List (HloOp τ sig (Elt F)) :=
  [ nullary main_c (fun i => lit0 (S8x3.rowMajor i)),
    nullary main_c_0 (constantI S_ 32 0#32),
    unary main_c_0 main_v0 (broadcastInDim S8x3 ![] bcast_S_S8x3 : (⟨S_, .i32⟩ : BufTy).Contents (Elt F) → (⟨S8x3, .i32⟩ : BufTy).Contents (Elt F)),
    binary main_c main_v0 main_v1 (cmpi .slt : (⟨S8x3, .i32⟩ : BufTy).Contents (Elt F) → (⟨S8x3, .i32⟩ : BufTy).Contents (Elt F) → (⟨S8x3, .i1⟩ : BufTy).Contents (Elt F)),
    nullary main_c_1 (constantI S_ 32 9#32),
    unary main_c_1 main_v2 (broadcastInDim S8x3 ![] bcast_S_S8x3 : (⟨S_, .i32⟩ : BufTy).Contents (Elt F) → (⟨S8x3, .i32⟩ : BufTy).Contents (Elt F)),
    binary main_c main_v2 main_v3 (addi : (⟨S8x3, .i32⟩ : BufTy).Contents (Elt F) → (⟨S8x3, .i32⟩ : BufTy).Contents (Elt F) → (⟨S8x3, .i32⟩ : BufTy).Contents (Elt F)),
    ternary main_v1 main_v3 main_c main_v4 (select : (⟨S8x3, .i1⟩ : BufTy).Contents (Elt F) → (⟨S8x3, .i32⟩ : BufTy).Contents (Elt F) → (⟨S8x3, .i32⟩ : BufTy).Contents (Elt F) → (⟨S8x3, .i32⟩ : BufTy).Contents (Elt F)),
    unary main_v4 main_v5 (broadcastInDim S8x3x1 ![0, 1] bcast_S8x3_S8x3x1_0_1 : (⟨S8x3, .i32⟩ : BufTy).Contents (Elt F) → (⟨S8x3x1, .i32⟩ : BufTy).Contents (Elt F)),
    binary main_arg0 main_v5 main_v6 ((fun x i => Host.gather gather_S256x512x9x32_S8x3x1_S256x512x8x3x32_014_2_n_n_2_2_256512132 x i) : (⟨S256x512x9x32, .f32⟩ : BufTy).Contents (Elt F) → (⟨S8x3x1, .i32⟩ : BufTy).Contents (Elt F) → (⟨S256x512x8x3x32, .f32⟩ : BufTy).Contents (Elt F)),
    reshape main_v6 main_v7 rfl shapeCasts_S256x512x8x3x32_S256x512x8x96,
    binary main_v7 main_arg1 main_v8 ((fun l r => Host.dotGeneral dot_S256x512x8x96_S96x32_S256x512x8x32_3_0_012_1_n_n none l r) : (⟨S256x512x8x96, .f32⟩ : BufTy).Contents (Elt F) → (⟨S96x32, .f32⟩ : BufTy).Contents (Elt F) → (⟨S256x512x8x32, .f32⟩ : BufTy).Contents (Elt F)),
    reshape main_v8 main_v9 rfl shapeCasts_S256x512x8x32_S256x512x256 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., binary_bufs_sub ..,
    reshape_bufs_sub ..⟩

/-- On every device, from any memory with zero counters: every weakly fair execution of @main terminates with the
    result buffer at the composed term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v9).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.RefValue

end
-- ==== Proof.RefRead.lean ====
/-
  The reference program's result, read at an index: the composed term of the run is the line-feature array of the
  specification. Each operation is read at one index — the two reshapes by row-major position, the contraction as a
  sum over the axis of 96, the gather by its dimension numbers — and the start index the gather reads for position p
  of line l is the cell number of the table, a fact about the 8 × 3 integer table alone.
-/
import proofs.«171795_j11570641895534_2_alg».proof.Proof.RefRun
import proofs.«171795_j11570641895534_2_alg».proof.Proof.Spec
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Lines

/-- The gather's dimension numbers: axes 0, 1, 3 of the operand are taken whole, axis 2 is collapsed and started at
    the index read off the table. -/
abbrev G := gather_S256x512x9x32_S8x3x1_S256x512x8x3x32_014_2_n_n_2_2_256512132
/-- The contraction's dimension numbers: axis 3 of the left operand against axis 0 of the right. -/
abbrev D := dot_S256x512x8x96_S96x32_S256x512x8x32_3_0_012_1_n_n

/-! ## The table -/

/-- The start index read for position `p` of line `l` — the table entry after the normalisation, every entry being
    non-negative — is the cell number `cell l p`: twenty-four closed cases on the integer table. -/
theorem starts_apply (l : Fin 8) (p : Fin 3) :
    ((starts (F := Ideal)) (ix3 l p (0 : Fin 1))).toInt.toNat = (cell l p).val := by
  fin_cases l <;> fin_cases p <;> rfl

/-! ## The gather -/

/-- Result index (b, n, l, p, e) reads its start index at (l, p, 0) of the start-index array. -/
theorem siIdx_ix5 (b : Fin 256) (n : Fin 512) (l : Fin 8) (p : Fin 3) (e : Fin 32) (h : 0 < G.startIndexMap.length) :
    G.siIdx (ix5 b n l p e) ⟨0, h⟩ = ix3 l p (0 : Fin 1) := by
  funext a
  match a with
  | ⟨0, _⟩ => rfl
  | ⟨1, _⟩ => rfl
  | ⟨2, _⟩ => rfl

/-- The gather at (b, n, l, p, e) is the operand at (b, n, c, e), `c` the start index read at (l, p, 0): it lies in
    [0, 8], so the clamp leaves it. -/
theorem gather_apply {α : Type} (x : S256x512x9x32.Idx → α) (idx : IVec S8x3x1 32)
    (b : Fin 256) (n : Fin 512) (l : Fin 8) (p : Fin 3) (e : Fin 32) (c : Fin 9)
    (hc : (idx (ix3 l p (0 : Fin 1))).toInt.toNat = c.val) :
    Host.gather G x idx (ix5 b n l p e) = x (ix4 b n c e) := by
  unfold Host.gather
  refine congrArg x (funext fun a => Fin.ext ?_)
  match a with
  | ⟨0, _⟩ => show 0 + 0 + b.val = b.val; omega
  | ⟨1, _⟩ => show 0 + 0 + n.val = n.val; omega
  | ⟨3, _⟩ => show 0 + 0 + e.val = e.val; omega
  | ⟨2, _⟩ =>
    have h0 : 0 < G.startIndexMap.length := Nat.one_pos
    show min (idx (G.siIdx (ix5 b n l p e) ⟨0, h0⟩)).toInt.toNat (9 - 1) + 0 + 0 = c.val
    rw [siIdx_ix5 b n l p e h0, hc]
    have := c.isLt
    omega

/-! ## The two reshapes -/

/-- Laying the three cells of a line end to end: entry `q` of the 96 is entry `q % 32` of cell position `q / 32`. -/
theorem cast96_apply {α : Type} (x : S256x512x8x3x32.Idx → α) (b : Fin 256) (n : Fin 512) (l : Fin 8) (q : Fin 96) :
    shapeCast S256x512x8x96 x shapeCasts_S256x512x8x3x32_S256x512x8x96 (ix4 b n l q) = x (ix5 b n l (hi96 q) (lo96 q)) := by
  refine shapeCast_apply x _ _ _ ?_
  rw [Shape.rowMajor_val_five, Shape.rowMajor_val_four]
  show (((b.val * 512 + n.val) * 8 + l.val) * 3 + q.val / 32) * 32 + q.val % 32 = ((b.val * 512 + n.val) * 8 + l.val) * 96 + q.val
  omega

/-- Laying the eight lines' features end to end: entry `k` of the 256 is feature `k % 32` of line `k / 32`. -/
theorem cast256_apply {α : Type} (x : S256x512x8x32.Idx → α) (b : Fin 256) (n : Fin 512) (k : Fin 256) :
    shapeCast S256x512x256 x shapeCasts_S256x512x8x32_S256x512x256 (ix3 b n k) = x (ix4 b n (hi256 k) (lo256 k)) := by
  refine shapeCast_apply x _ _ _ ?_
  rw [Shape.rowMajor_val_four, Shape.rowMajor_val_three]
  show ((b.val * 512 + n.val) * 8 + k.val / 32) * 32 + k.val % 32 = (b.val * 512 + n.val) * 256 + k.val
  omega

/-! ## The contraction -/

/-- The contraction at (b, n, l, f) is the sum over the 96 entries of the products of the left operand at
    (b, n, l, q) and the weights at (q, f). -/
theorem dot_apply (L : FVec Ideal S256x512x8x96 .f32) (K : FVec Ideal S96x32 .f32)
    (b : Fin 256) (n : Fin 512) (l : Fin 8) (f : Fin 32) :
    Host.dotGeneral D none L K (ix4 b n l f) = ∑ q : Fin 96, L (ix4 b n l q) * K (ix2 q f) := by
  simp only [Host.dotGeneral]
  rw [Ideal.dotGeneral_apply]
  rw [← Equiv.sum_comp (contrEquiv1 D 96 rfl rfl).symm]
  refine Finset.sum_congr rfl fun q _ => ?_
  congr 1
  · refine congrArg L (funext fun a => Fin.ext ?_)
    match a with
    | ⟨0, _⟩ => rfl
    | ⟨1, _⟩ => rfl
    | ⟨2, _⟩ => rfl
    | ⟨3, _⟩ => exact (DotDims.lhsIdx_val_of_single D rfl _ _).trans (contrEquiv1_symm_val D 96 rfl rfl q)
  · refine congrArg K (funext fun a => Fin.ext ?_)
    match a with
    | ⟨0, _⟩ => exact (DotDims.rhsIdx_val_of_single D rfl _ _).trans (contrEquiv1_symm_val D 96 rfl rfl q)
    | ⟨1, _⟩ => rfl

/-! ## The composed term is the line-feature array -/

/-- The composed term of the run is the specification's line-feature array: at (b, n, 32 l + f) the sum over the 96
    laid-out entries splits into positions and entries, and the entry at position p is the gathered cell `cell l p`. -/
theorem refTerm_eq (X : FVec Ideal S256x512x9x32 .f32) (K : FVec Ideal S96x32 .f32) :
    refTerm (F := Ideal) X K = lineFeat X K := by
  funext i
  obtain ⟨b, n, k, rfl⟩ : ∃ (b : Fin 256) (n : Fin 512) (k : Fin 256), i = ix3 b n k := ⟨i 0, i 1, i 2, eq_ix3 i⟩
  unfold refTerm
  refine (cast256_apply _ b n k).trans ?_
  refine (dot_apply _ K b n (hi256 k) (lo256 k)).trans ?_
  show _ = lineFeatAt X K b n (hi256 k) (lo256 k)
  unfold lineFeatAt
  rw [sum_split96]
  refine Finset.sum_congr rfl fun p _ => Finset.sum_congr rfl fun e _ => ?_
  rw [cast96_apply, hi96_cat3, lo96_cat3,
    gather_apply X (starts (F := Ideal)) b n (hi256 k) p e (cell (hi256 k) p) (starts_apply (hi256 k) p)]

/-! ## The run -/

/-- On every device, from any memory with zero counters: every weakly fair execution of the reference program
    terminates with its result buffer at the line-feature array of its two arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = Cert.Lines.lineFeat (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (refTerm_eq _ _), (h c).2⟩) (run_term m ρ)

end Cert.ReferenceIdeal.RefValue

end
-- ==== Proof.lean ====
/-
  Line features of a 3 × 3 board, two ways, equal on the extended reals.

  Every sample point (b, n) carries nine cells of 32 entries; each of the eight lines of the board (rows, columns,
  diagonals) names three cells, and feature f of line l is the inner product of the line's three cells, laid end to
  end, with column f of a 96 × 32 weight array (Proof/Spec.lean, `lineFeat`).

  The reference gathers the three cells of every line, lays them end to end and contracts the 96 entries against the
  weights (Proof/RefRun.lean, Proof/RefRead.lean). The kernel program instead builds, once, a 288 × 256
  selection-weight array — the weights of position p written at the rows of cell `cell l p` and the columns of line l,
  zero elsewhere (Proof/LibScatterSet.lean, Proof/SelWeight.lean, Proof/KWeights.lean) — flattens each point's nine cells
  to one row of 288 entries (Proof/KEntry.lean) and multiplies 4096 rows at a time against it (Proof/KPay.lean,
  Proof/KBlocks.lean), reshaping the result back (Proof/KRun.lean). For each line the 288-term contraction keeps the 96
  terms of the line's own cells and adds 192 products with zero: `Cert.Lines.sum_select`. A product with zero is zero
  on every extended real and a finite sum may be regrouped, so the precondition (finite inputs) is never opened.

  The kernel's idealization rewrote nothing, so `preserves` is trivial; the three frames are the generated frame
  certificates and the reference's run with its result dropped.
-/
import proofs.«171795_j11570641895534_2_alg».proof.Defs
import proofs.«171795_j11570641895534_2_alg».proof.Proof.Gen.Kernel
import proofs.«171795_j11570641895534_2_alg».proof.Proof.Gen.Kernel.Frame
import proofs.«171795_j11570641895534_2_alg».proof.Proof.Gen.KernelIdeal
import proofs.«171795_j11570641895534_2_alg».proof.Proof.Gen.KernelIdeal.Frame
import proofs.«171795_j11570641895534_2_alg».proof.Proof.Gen.ReferenceIdeal
import proofs.«171795_j11570641895534_2_alg».proof.Proof.Gen.Pre_finite_inputs
import proofs.«171795_j11570641895534_2_alg».proof.Proof.Spec
import proofs.«171795_j11570641895534_2_alg».proof.Proof.KRun
import proofs.«171795_j11570641895534_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program terminates without a fault and keeps its arguments: the generated frame certificate. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference terminates and keeps its arguments: its run, the result forgotten. -/
theorem frame_ref : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both idealized programs end with their result buffer at the line-feature array of their (agreeing) arguments. -/
theorem algebraic : Cert.algebraic_KernelIdeal_ReferenceIdeal := by
  intro m ρ m' ρ' _ hagree
  refine ⟨fun c => Cert.Lines.lineFeat (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
